-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256 : Shape := ⟨2, ![128, 256]⟩
abbrev S64x256x2048 : Shape := ⟨3, ![64, 256, 2048]⟩
abbrev S_ : Shape := ⟨0, ![]⟩

class Facts : Prop where
  bcast_S_S128x256 : S_.BroadcastsInDim S128x256 (![] : Fin 0 → Fin S128x256.rank)
  reducesTo_S128x256_S_d0_1 : S128x256.ReducesTo [0, 1] S_
  h_S_ : 0 < S_.numel
  bcast_S_S64x256x2048 : S_.BroadcastsInDim S64x256x2048 (![] : Fin 0 → Fin S64x256x2048.rank)
  reducesTo_S64x256x2048_S_d0_1_2 : S64x256x2048.ReducesTo [0, 1, 2] S_

variable [Facts]

def fn {F : FTy → Type} [FloatOps F] (main_arg0 : FVec F S128x256 .f32) (main_arg1 : FVec F S64x256x2048 .f32) : IVec S_ 1 :=
  let main_v0 : FVec F S128x256 .f32 := Host.absf main_arg0
  let main_cst : FVec F S_ .f32 := constant S_ .f32 0x7F800000#32
  let main_v1 : FVec F S128x256 .f32 := broadcastInDim S128x256 ![] bcast_S_S128x256 main_cst
  let main_v2 : IVec S128x256 1 := cmpf .olt main_v0 main_v1
  let main_c : IVec S_ 1 := constantI S_ 1 1#1
  let main_v3 : IVec S_ 1 := (fun x v => Host.reduce IntOp.andi x v reducesTo_S128x256_S_d0_1 h_S_) main_v2 main_c
  let main_v4 : FVec F S64x256x2048 .f32 := Host.absf main_arg1
  let main_cst_0 : FVec F S_ .f32 := constant S_ .f32 0x7F800000#32
  let main_v5 : FVec F S64x256x2048 .f32 := broadcastInDim S64x256x2048 ![] bcast_S_S64x256x2048 main_cst_0
  let main_v6 : IVec S64x256x2048 1 := cmpf .olt main_v4 main_v5
  let main_c_1 : IVec S_ 1 := constantI S_ 1 1#1
  let main_v7 : IVec S_ 1 := (fun x v => Host.reduce IntOp.andi x v reducesTo_S64x256x2048_S_d0_1_2 h_S_) main_v6 main_c_1
  let main_v8 : IVec S_ 1 := andi main_v3 main_v7
  main_v8
-- ==== Kernel.lean ====
abbrev S128x256 : Shape := ⟨2, ![128, 256]⟩
abbrev S64x256x2048 : Shape := ⟨3, ![64, 256, 2048]⟩
abbrev S64x128x2048 : Shape := ⟨3, ![64, 128, 2048]⟩
abbrev S4x256x2048 : Shape := ⟨3, ![4, 256, 2048]⟩
abbrev S4x128x2048 : Shape := ⟨3, ![4, 128, 2048]⟩
abbrev S1x256x2048 : Shape := ⟨3, ![1, 256, 2048]⟩
abbrev S256x2048 : Shape := ⟨2, ![256, 2048]⟩
abbrev S128x2048 : Shape := ⟨2, ![128, 2048]⟩
abbrev S1x128x2048 : Shape := ⟨3, ![1, 128, 2048]⟩

abbrev nBuf : Space → Nat
  | .hbm => 3
  | .vmem => 5
  | .smem => 0
  | _ => 0

abbrev bufTy : (tb : Table) → Fin (tcTables nBuf tb) → BufTy
  | .hbm, ⟨0, _⟩ => ⟨S128x256, .f32⟩
  | .hbm, ⟨1, _⟩ => ⟨S64x256x2048, .f32⟩
  | .hbm, ⟨2, _⟩ => ⟨S64x128x2048, .f32⟩
  | .local _ .vmem, ⟨0, _⟩ => ⟨S128x256, .f32⟩
  | .local _ .vmem, ⟨1, _⟩ => ⟨S4x256x2048, .f32⟩
  | .local _ .vmem, ⟨2, _⟩ => ⟨S4x256x2048, .f32⟩
  | .local _ .vmem, ⟨3, _⟩ => ⟨S4x128x2048, .f32⟩
  | .local _ .vmem, ⟨4, _⟩ => ⟨S4x128x2048, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x256_0_0 : ∀ a, (![0, 0] : Fin 2 → Nat) a + S128x256.size a ≤ S128x256.size a
  h_S128x256 : 0 < S128x256.numel
  bitsLt_bf16_f32 : FTy.bits .bf16 < FTy.bits .f32
  inb_S4x256x2048_S1x256x2048_0_0_0 : ∀ a, (![0, 0, 0] : Fin 3 → Nat) a + S1x256x2048.size a ≤ S4x256x2048.size a
  h_S1x256x2048 : 0 < S1x256x2048.numel
  shapeCasts_S1x256x2048_S256x2048 : S1x256x2048.ShapeCasts S256x2048
  inb_S4x128x2048_S1x128x2048_0_0_0 : ∀ a, (![0, 0, 0] : Fin 3 → Nat) a + S1x128x2048.size a ≤ S4x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  inb_S4x256x2048_S1x256x2048_1_0_0 : ∀ a, (![1, 0, 0] : Fin 3 → Nat) a + S1x256x2048.size a ≤ S4x256x2048.size a
  inb_S4x128x2048_S1x128x2048_1_0_0 : ∀ a, (![1, 0, 0] : Fin 3 → Nat) a + S1x128x2048.size a ≤ S4x128x2048.size a
  inb_S4x256x2048_S1x256x2048_2_0_0 : ∀ a, (![2, 0, 0] : Fin 3 → Nat) a + S1x256x2048.size a ≤ S4x256x2048.size a
  inb_S4x128x2048_S1x128x2048_2_0_0 : ∀ a, (![2, 0, 0] : Fin 3 → Nat) a + S1x128x2048.size a ≤ S4x128x2048.size a
  inb_S4x256x2048_S1x256x2048_3_0_0 : ∀ a, (![3, 0, 0] : Fin 3 → Nat) a + S1x256x2048.size a ≤ S4x256x2048.size a
  inb_S4x128x2048_S1x128x2048_3_0_0 : ∀ a, (![3, 0, 0] : Fin 3 → Nat) a + S1x128x2048.size a ≤ S4x128x2048.size a
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256x2048.size a ≤ S64x256x2048.size a
  hwx0_1 : ∀ i : grid0.Coords, EltTy.bits .f32 = 32 ∨ (Rect.block (s := S64x256x2048) S4x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128x2048.size a ≤ S64x128x2048.size a
  hwx0_2 : ∀ i : grid0.Coords, EltTy.bits .f32 = 32 ∨ (Rect.block (s := S64x128x2048) S4x128x2048.size (cc0_transform_2 i) (hinb0_2 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S128x256 : Shape := ⟨2, ![128, 256]⟩
abbrev S64x256x2048 : Shape := ⟨3, ![64, 256, 2048]⟩
abbrev S64x128x2048 : Shape := ⟨3, ![64, 128, 2048]⟩
abbrev S1x256x2048 : Shape := ⟨3, ![1, 256, 2048]⟩
abbrev S1x128x2048 : Shape := ⟨3, ![1, 128, 2048]⟩
abbrev S256x2048 : Shape := ⟨2, ![256, 2048]⟩
abbrev S128x2048 : Shape := ⟨2, ![128, 2048]⟩

abbrev nBuf : Space → Nat
  | .hbm => 3
  | .vmem => 5
  | .smem => 0
  | _ => 0

abbrev bufTy : (tb : Table) → Fin (tcTables nBuf tb) → BufTy
  | .hbm, ⟨0, _⟩ => ⟨S128x256, .f32⟩
  | .hbm, ⟨1, _⟩ => ⟨S64x256x2048, .f32⟩
  | .hbm, ⟨2, _⟩ => ⟨S64x128x2048, .f32⟩
  | .local _ .vmem, ⟨0, _⟩ => ⟨S128x256, .f32⟩
  | .local _ .vmem, ⟨1, _⟩ => ⟨S1x256x2048, .f32⟩
  | .local _ .vmem, ⟨2, _⟩ => ⟨S1x256x2048, .f32⟩
  | .local _ .vmem, ⟨3, _⟩ => ⟨S1x128x2048, .f32⟩
  | .local _ .vmem, ⟨4, _⟩ => ⟨S1x128x2048, .f32⟩
  | _, _ => ⟨S128x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S128x256_S128x256_0_0 : ∀ a, (![0, 0] : Fin 2 → Nat) a + S128x256.size a ≤ S128x256.size a
  h_S128x256 : 0 < S128x256.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  dot_S128x256_S256x2048_S128x2048_1_0_0_1_n_n_wf : DotDims.WF S128x256 S256x2048 S128x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x256.size a ≤ S128x256.size a
  hwx0_0 : ∀ i : grid0.Coords, EltTy.bits .f32 = 32 ∨ (Rect.block (s := S128x256) S128x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x2048.size a ≤ S64x256x2048.size a
  hwx0_1 : ∀ i : grid0.Coords, EltTy.bits .f32 = 32 ∨ (Rect.block (s := S64x256x2048) S1x256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x2048.size a ≤ S64x128x2048.size a
  hwx0_2 : ∀ i : grid0.Coords, EltTy.bits .f32 = 32 ∨ (Rect.block (s := S64x128x2048) S1x128x2048.size (cc0_transform_2 i) (hinb0_2 i)).WholeWords (EltTy.packing .f32)

variable [Facts₀]

def dot_S128x256_S256x2048_S128x2048_1_0_0_1_n_n : DotDims S128x256 S256x2048 S128x2048 where
  lhsContracting := [1]
  rhsContracting := [0]
  lhsNonContracting := [0]
  rhsNonContracting := [1]
  lhsBatch := []
  rhsBatch := []
  wf := dot_S128x256_S256x2048_S128x2048_1_0_0_1_n_n_wf

abbrev win0_0 : Pipeline.Window sig grid0 :=
  Pipeline.Window.ofSpec (Memref.whole main_arg0) S128x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.Combine.lean ====
/-
  The channel combiner as ONE function of its two argument arrays, and the one batch slab both programs compute.

  With a weight matrix w of shape [128, 256] and an input x of shape [64, 256, 2048], the result is
      out[b, n, t] = Σ_c w[n, c] · x[b, c, t],
  for each batch b the rows-by-columns product of w with the slab x[b] (256 channels by 2048 time steps), over the
  extended reals. Nothing here needs the entries to be finite: both programs form this very sum, term for term,
  and differ only in how many slabs one grid point handles.

  * `combine w x` is that function; `combine_apply` reads it at explicit coordinates.
  * `slab_apply`: a rows-by-columns product of a [128, 256] by a [256, 2048] operand into the zero accumulator, given
    a leading unit axis afterwards, reads at (u, n, t) the sum over c of l (n, c) · r (c, t) — whatever precision the
    product was asked for, which the exact product does not look at.
  * `slab_of_array`: when the left operand is w and the right operand is slab b of x, that sum is `combine w x` at
    (b, n, t).
-/
import Idealize.ShloMosaic.Lib.ValueIdx
import Idealize.ShloMosaic.Lib.Pipeline.Value
import Idealize.ShloMosaic.Lib.ValueLayout
import Idealize.ShloMosaic.PureOps.Ideal.Laws
import proofs.«137641_g2000406248505700_pallasbulk_1107_12_alg».proof.Proof.LibPlainMatmul

noncomputable section

namespace Cert.Combine

open Idealize.ShloMosaic Idealize.ShloMosaic.ValueIdx Cert.LibPlainMatmul
open scoped BigOperators

/-- out[b, n, t] = Σ_c w[n, c] · x[b, c, t]. -/
def combine (w : FVec Ideal ⟨2, ![128, 256]⟩ .f32) (x : FVec Ideal ⟨3, ![64, 256, 2048]⟩ .f32) :
    FVec Ideal ⟨3, ![64, 128, 2048]⟩ .f32 :=
  fun i => ∑ c : Fin 256, w (ix2 (i 1 : Fin 128) c) * x (ix3 (i 0 : Fin 64) c (i 2 : Fin 2048))

/-- The same, at explicit coordinates. -/
theorem combine_apply (w : FVec Ideal ⟨2, ![128, 256]⟩ .f32) (x : FVec Ideal ⟨3, ![64, 256, 2048]⟩ .f32)
    (b : Fin 64) (n : Fin 128) (t : Fin 2048) :
    combine w x (ix3 b n t) = ∑ c : Fin 256, w (ix2 n c) * x (ix3 b c t) := rfl

/-- The exact product does not look at the precision it was asked for. -/
theorem matmul_any_precision {sl sr so : Shape} {φ₁ φ₂ : FTy} (d : DotDims sl sr so) (prec : Option ContractPrecision)
    (l : FVec Ideal sl φ₁) (r : FVec Ideal sr φ₂) (acc : FVec Ideal so .f32) :
    FloatOps.matmul d prec l r acc = FloatOps.matmul d none l r acc := rfl

/-- One slab: the product of a [128, 256] by a [256, 2048] operand into the zero accumulator, then given a leading unit
    axis, reads at (u, n, t) the sum over the 256 channels of l (n, c) · r (c, t). -/
theorem slab_apply {φ₁ φ₂ : FTy}
    (wf : DotDims.WF (⟨2, ![128, 256]⟩ : Shape) ⟨2, ![256, 2048]⟩ ⟨2, ![128, 2048]⟩ [1] [0] [0] [1] [] [])
    (prec : Option ContractPrecision)
    (l : FVec Ideal ⟨2, ![128, 256]⟩ φ₁) (r : FVec Ideal ⟨2, ![256, 2048]⟩ φ₂)
    (h : (⟨2, ![128, 2048]⟩ : Shape).ShapeCasts ⟨3, ![1, 128, 2048]⟩) (u : Fin 1) (n : Fin 128) (t : Fin 2048) :
    shapeCast ⟨3, ![1, 128, 2048]⟩
        (FloatOps.matmul (plainDims wf) prec l r (constant (F := Ideal) ⟨2, ![128, 2048]⟩ .f32 0x00000000#32)) h (ix3 u n t)
      = ∑ c : Fin 256, l (ix2 n c) * r (ix2 c t) := by
  rw [shapeCast_ab_1ab_apply, matmul_any_precision]
  exact matmul_zero_plain wf l r n t

/-- When the left operand is w and the right operand is slab b of x, one slab's sum is the combiner at (b, n, t). -/
theorem slab_of_array (w : FVec Ideal ⟨2, ![128, 256]⟩ .f32) (x : FVec Ideal ⟨3, ![64, 256, 2048]⟩ .f32)
    (l : Fin 128 → Fin 256 → EReal) (r : Fin 256 → Fin 2048 → EReal) (b : Fin 64) (n : Fin 128) (t : Fin 2048)
    (hl : ∀ c, l n c = w (ix2 n c)) (hr : ∀ c, r c t = x (ix3 b c t)) :
    ∑ c : Fin 256, l n c * r c t = combine w x (ix3 b n t) := by
  rw [combine_apply]
  exact Finset.sum_congr rfl fun c _ => by rw [hl c, hr c]

end Cert.Combine

end
-- ==== Proof.KernelWhole.lean ====
/-
  The kernel's result array is the channel combiner of its two arguments.

  The kernel walks a grid of 16 points, four batches per point. Point t stages the whole weight matrix and the four
  slabs x[4t], …, x[4t+3] (a [4, 256, 2048] block), and for each of the four forms the rows-by-columns product of the
  weights with that slab and stores it as one [1, 128, 2048] piece of its [4, 128, 2048] result block. The casts of both
  operands to a narrower format change nothing over the extended reals.

  So each piece q of the block is the slab product of slab q (`piece0` … `piece3`), the block read at (q, n, s) is the sum
  over the channels of weight (n, c) times the staged block at (q, c, s) (`block_apply`: the four pieces tile the block,
  and each is that one function's restriction), what point t writes back is block t of `combine w x` (`flushed_eq`:
  local batch q of point t is batch 4t + q), the 16 blocks cover the result array (`cover`: batch b is in the block of
  point b / 4), and the array after the run is `combine w x` (`final`, `run`).
-/
import proofs.«137641_g2000406248505700_pallasbulk_1107_12_alg».proof.Proof.Gen.KernelIdeal.Value
import proofs.«137641_g2000406248505700_pallasbulk_1107_12_alg».proof.Proof.Combine

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.Combine
open Idealize.ShloMosaic.Pipeline (Dat)
open scoped BigOperators

variable (m : (ℓ : Loc nD τ sig) → Buf (Elt Ideal) ℓ) (ρ : Dev nD → PrngReg)

theorem zeros2 : (![0, 0] : Fin 2 → Nat) = fun _ => 0 := funext fun a => by fin_cases a <;> rfl

/-! ## The four pieces, each a slab product -/

/-- The first piece at (u, n, s): the sum over the channels of weight (n, c) times the loaded slab at (0, c, s). -/
theorem piece0 (x0 : Vec Ideal S128x256 .f32) (v : Vec Ideal S1x256x2048 .f32) (u : Fin 1) (n : Fin 128) (s : Fin 2048) :
    k0_pay3 x0 v (ix3 u n s) = ∑ c : Fin 256, x0 (ix2 n c) * v (ix3 (0 : Fin 1) c s) := by
  unfold k0_pay3 k0_pay2
  refine (slab_apply (φ₁ := .bf16) (φ₂ := .bf16) dot_S128x256_S256x2048_S128x2048_1_0_0_1_n_n_wf none _ _ _ u n s).trans ?_
  exact Finset.sum_congr rfl fun c _ => by rw [truncf_apply, truncf_apply, shapeCast_1ab_ab_apply]

/-- The second piece, likewise. -/
theorem piece1 (x0 : Vec Ideal S128x256 .f32) (v : Vec Ideal S1x256x2048 .f32) (u : Fin 1) (n : Fin 128) (s : Fin 2048) :
    k0_pay4 x0 v (ix3 u n s) = ∑ c : Fin 256, x0 (ix2 n c) * v (ix3 (0 : Fin 1) c s) := by
  unfold k0_pay4 k0_pay2
  refine (slab_apply (φ₁ := .bf16) (φ₂ := .bf16) dot_S128x256_S256x2048_S128x2048_1_0_0_1_n_n_wf none _ _ _ u n s).trans ?_
  exact Finset.sum_congr rfl fun c _ => by rw [truncf_apply, truncf_apply, shapeCast_1ab_ab_apply]

/-- The third piece, likewise. -/
theorem piece2 (x0 : Vec Ideal S128x256 .f32) (v : Vec Ideal S1x256x2048 .f32) (u : Fin 1) (n : Fin 128) (s : Fin 2048) :
    k0_pay5 x0 v (ix3 u n s) = ∑ c : Fin 256, x0 (ix2 n c) * v (ix3 (0 : Fin 1) c s) := by
  unfold k0_pay5 k0_pay2
  refine (slab_apply (φ₁ := .bf16) (φ₂ := .bf16) dot_S128x256_S256x2048_S128x2048_1_0_0_1_n_n_wf none _ _ _ u n s).trans ?_
  exact Finset.sum_congr rfl fun c _ => by rw [truncf_apply, truncf_apply, shapeCast_1ab_ab_apply]

/-- The fourth piece, likewise (its product and its leading unit axis are two steps of the body). -/
theorem piece3 (x0 : Vec Ideal S128x256 .f32) (v : Vec Ideal S1x256x2048 .f32) (u : Fin 1) (n : Fin 128) (s : Fin 2048) :
    k0_pay1 (k0_pay6 x0 v) (ix3 u n s) = ∑ c : Fin 256, x0 (ix2 n c) * v (ix3 (0 : Fin 1) c s) := by
  unfold k0_pay1 k0_pay6 k0_pay2
  refine (slab_apply (φ₁ := .bf16) (φ₂ := .bf16) dot_S128x256_S256x2048_S128x2048_1_0_0_1_n_n_wf none _ _ _ u n s).trans ?_
  exact Finset.sum_congr rfl fun c _ => by rw [truncf_apply, truncf_apply, shapeCast_1ab_ab_apply]

/-! ## The block the body leaves, read at an index -/

/-- The block as one function of the staged weights and the staged four slabs. -/
def blockFn (x0 : Vec Ideal S128x256 .f32) (x1 : Vec Ideal S4x256x2048 .f32) : Vec Ideal S4x128x2048 .f32 :=
  fun y => ∑ c : Fin 256, x0 (ix2 (y 1 : Fin 128) c) * x1 (ix3 (y 0 : Fin 4) c (y 2 : Fin 2048))

/-- The body's result block at (q, n, s): the sum over the channels of weight (n, c) times the staged block at
    (q, c, s) — each of the four stored pieces is this function on its own slab, and the pieces tile the block. -/
theorem block_apply (x0 : Vec Ideal S128x256 .f32) (x1 : Vec Ideal S4x256x2048 .f32) (q : Fin 4) (n : Fin 128) (s : Fin 2048) :
    out0_2 x0 x1 (ix3 q n s) = ∑ c : Fin 256, x0 (ix2 n c) * x1 (ix3 q c s) := by
  unfold out0_2
  simp only [View.ld_unit_zero (S := S128x256) zeros2]
  refine View.canon_apply_of_pieces (Val := Elt Ideal) (blockFn x0 x1) _ ?_ (ix3 q n s) (cover0_2 _ _ _ _ _)
  intro p hp
  simp only [List.mem_cons, List.not_mem_nil, or_false] at hp
  rcases hp with rfl | rfl | rfl | rfl
  · intro y
    obtain ⟨u, a, b, rfl⟩ : ∃ (u : Fin 1) (a : Fin 128) (b : Fin 2048), y = ix3 u a b := ⟨y 0, y 1, y 2, eq_ix3 y⟩
    have hu : u.val = 0 := by omega
    have e : r0_8.emb (ix3 u a b) = ix3 (3 : Fin 4) a b := by
      funext d; apply Fin.ext
      match d with
      | ⟨0, _⟩ => show 3 + 1 * u.val = 3; omega
      | ⟨1, _⟩ => show 0 + 1 * a.val = a.val; omega
      | ⟨2, _⟩ => show 0 + 1 * b.val = b.val; omega
    show k0_pay1 (k0_pay6 x0 (View.ld x1 r0_7)) (ix3 u a b) = blockFn x0 x1 (r0_8.emb (ix3 u a b))
    rw [e]
    refine (piece3 x0 (View.ld x1 r0_7) u a b).trans (Finset.sum_congr rfl fun c _ => ?_)
    refine congrArg _ ?_
    show x1 (r0_7.emb (ix3 (0 : Fin 1) c b)) = x1 (ix3 (3 : Fin 4) c b)
    refine congrArg _ ?_
    funext d; apply Fin.ext
    match d with
    | ⟨0, _⟩ => rfl
    | ⟨1, _⟩ => show 0 + 1 * c.val = c.val; omega
    | ⟨2, _⟩ => show 0 + 1 * b.val = b.val; omega
  · intro y
    obtain ⟨u, a, b, rfl⟩ : ∃ (u : Fin 1) (a : Fin 128) (b : Fin 2048), y = ix3 u a b := ⟨y 0, y 1, y 2, eq_ix3 y⟩
    have hu : u.val = 0 := by omega
    have e : r0_6.emb (ix3 u a b) = ix3 (2 : Fin 4) a b := by
      funext d; apply Fin.ext
      match d with
      | ⟨0, _⟩ => show 2 + 1 * u.val = 2; omega
      | ⟨1, _⟩ => show 0 + 1 * a.val = a.val; omega
      | ⟨2, _⟩ => show 0 + 1 * b.val = b.val; omega
    show k0_pay5 x0 (View.ld x1 r0_5) (ix3 u a b) = blockFn x0 x1 (r0_6.emb (ix3 u a b))
    rw [e]
    refine (piece2 x0 (View.ld x1 r0_5) u a b).trans (Finset.sum_congr rfl fun c _ => ?_)
    refine congrArg _ ?_
    show x1 (r0_5.emb (ix3 (0 : Fin 1) c b)) = x1 (ix3 (2 : Fin 4) c b)
    refine congrArg _ ?_
    funext d; apply Fin.ext
    match d with
    | ⟨0, _⟩ => rfl
    | ⟨1, _⟩ => show 0 + 1 * c.val = c.val; omega
    | ⟨2, _⟩ => show 0 + 1 * b.val = b.val; omega
  · intro y
    obtain ⟨u, a, b, rfl⟩ : ∃ (u : Fin 1) (a : Fin 128) (b : Fin 2048), y = ix3 u a b := ⟨y 0, y 1, y 2, eq_ix3 y⟩
    have hu : u.val = 0 := by omega
    have e : r0_4.emb (ix3 u a b) = ix3 (1 : Fin 4) a b := by
      funext d; apply Fin.ext
      match d with
      | ⟨0, _⟩ => show 1 + 1 * u.val = 1; omega
      | ⟨1, _⟩ => show 0 + 1 * a.val = a.val; omega
      | ⟨2, _⟩ => show 0 + 1 * b.val = b.val; omega
    show k0_pay4 x0 (View.ld x1 r0_3) (ix3 u a b) = blockFn x0 x1 (r0_4.emb (ix3 u a b))
    rw [e]
    refine (piece1 x0 (View.ld x1 r0_3) u a b).trans (Finset.sum_congr rfl fun c _ => ?_)
    refine congrArg _ ?_
    show x1 (r0_3.emb (ix3 (0 : Fin 1) c b)) = x1 (ix3 (1 : Fin 4) c b)
    refine congrArg _ ?_
    funext d; apply Fin.ext
    match d with
    | ⟨0, _⟩ => rfl
    | ⟨1, _⟩ => show 0 + 1 * c.val = c.val; omega
    | ⟨2, _⟩ => show 0 + 1 * b.val = b.val; omega
  · intro y
    obtain ⟨u, a, b, rfl⟩ : ∃ (u : Fin 1) (a : Fin 128) (b : Fin 2048), y = ix3 u a b := ⟨y 0, y 1, y 2, eq_ix3 y⟩
    have hu : u.val = 0 := by omega
    have e : r0_2.emb (ix3 u a b) = ix3 (0 : Fin 4) a b := by
      funext d; apply Fin.ext
      match d with
      | ⟨0, _⟩ => show 0 + 1 * u.val = 0; omega
      | ⟨1, _⟩ => show 0 + 1 * a.val = a.val; omega
      | ⟨2, _⟩ => show 0 + 1 * b.val = b.val; omega
    show k0_pay3 x0 (View.ld x1 r0_1) (ix3 u a b) = blockFn x0 x1 (r0_2.emb (ix3 u a b))
    rw [e]
    refine (piece0 x0 (View.ld x1 r0_1) u a b).trans (Finset.sum_congr rfl fun c _ => ?_)
    refine congrArg _ ?_
    show x1 (r0_1.emb (ix3 (0 : Fin 1) c b)) = x1 (ix3 (0 : Fin 4) c b)
    refine congrArg _ ?_
    funext d; apply Fin.ext
    match d with
    | ⟨0, _⟩ => rfl
    | ⟨1, _⟩ => show 0 + 1 * c.val = c.val; omega
    | ⟨2, _⟩ => show 0 + 1 * b.val = b.val; omega

/-! ## From blocks to the array -/

/-- Where the windows' blocks sit at point t: the weights' block is the whole matrix, and the four slabs and the result
    block are both number t along the batch axis (four batches each) and whole along the other two. -/
theorem block_indices : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the combiner of the arrays as the region finds them: local batch q of
    point t is batch 4t + q. -/
theorem flushed_eq (c : Dev nD) (t : Fin cfg0.N) :
    (dats m 0 c).flushed 2 t
      = ((cfg0.win 2).blk t).view.read (Elt Ideal) (combine (V m c main_arg0) (V m c main_arg1)) := by
  rw [Value.flushed2]
  obtain ⟨a0, a1, b0, b1, b2, o0, o1, o2⟩ := block_indices t
  funext j
  obtain ⟨q, n, s, rfl⟩ : ∃ (q : Fin 4) (n : Fin 128) (s : Fin 2048), j = ix3 q n s := ⟨j 0, j 1, j 2, eq_ix3 j⟩
  show out0_2 (iblk m c 0 t) (iblk m c 1 t) (ix3 q n s)
    = combine (V m c main_arg0) (V m c main_arg1) (((cfg0.win 2).blk t).view.emb (ix3 q n s))
  have ht : t.val < 16 := t.isLt
  have hb : t.val * 4 + q.val < 64 := by omega
  have hemb : ((cfg0.win 2).blk t).view.emb (ix3 q n s) = ix3 (⟨t.val * 4 + q.val, hb⟩ : Fin 64) n s := by
    funext a; apply Fin.ext
    match a with
    | ⟨0, _⟩ => show win0_2.index t (0 : Fin 3) * 4 + 1 * q.val = t.val * 4 + q.val; omega
    | ⟨1, _⟩ => show win0_2.index t (1 : Fin 3) * 128 + 1 * n.val = n.val; omega
    | ⟨2, _⟩ => show win0_2.index t (2 : Fin 3) * 2048 + 1 * s.val = s.val; omega
  rw [hemb]
  refine (block_apply (iblk m c 0 t) (iblk m c 1 t) q n s).trans ?_
  refine slab_of_array _ _ (fun p k => iblk m c 0 t (ix2 p k)) (fun k r => iblk m c 1 t (ix3 q k r)) _ n s
    (fun k => ?_) (fun k => ?_)
  · show V m c main_arg0 (((cfg0.win 0).blk t).view.emb (ix2 n k)) = V m c main_arg0 (ix2 n k)
    refine congrArg _ ?_
    funext a; apply Fin.ext
    match a with
    | ⟨0, _⟩ => show win0_0.index t (0 : Fin 2) * 128 + 1 * n.val = n.val; omega
    | ⟨1, _⟩ => show win0_0.index t (1 : Fin 2) * 256 + 1 * k.val = k.val; omega
  · show V m c main_arg1 (((cfg0.win 1).blk t).view.emb (ix3 q k s)) = V m c main_arg1 (ix3 (⟨t.val * 4 + q.val, hb⟩ : Fin 64) k s)
    refine congrArg _ ?_
    funext a; apply Fin.ext
    match a with
    | ⟨0, _⟩ => show win0_1.index t (0 : Fin 3) * 4 + 1 * q.val = t.val * 4 + q.val; omega
    | ⟨1, _⟩ => show win0_1.index t (1 : Fin 3) * 256 + 1 * k.val = k.val; omega
    | ⟨2, _⟩ => show win0_1.index t (2 : Fin 3) * 2048 + 1 * s.val = s.val; omega

/-- An index of the result array lies in point t's block iff each coordinate lies in the block's range. -/
theorem mem_block (t : Fin cfg0.N) (i : S64x128x2048.Idx) :
    i ∈ ((cfg0.win 2).blk t).view.set ↔ ∀ a : Fin 3, win0_2.index t a * S4x128x2048.size a ≤ (i a).val
      ∧ (i a).val < win0_2.index t a * S4x128x2048.size a + S4x128x2048.size a := by
  show i ∈ ((View.whole main_v0).slice (win0_2.rect t)).set ↔ _
  rw [View.set_slice_whole, Rect.mem_set_unit]
  exact Iff.rfl

/-- Every index of the result array is in some point's block: index (b, n, s) is in the block of point b / 4. -/
theorem cover (i : S64x128x2048.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 2048 := (i 2).isLt
  have hq : (i 0).val / 4 < 16 := by omega
  refine ⟨⟨(i 0).val / 4, hq⟩, flush0_2 _, ?_⟩
  rw [mem_block]
  obtain ⟨-, -, -, -, -, o0, o1, o2⟩ := block_indices ⟨(i 0).val / 4, hq⟩
  have o0' : win0_2.index ⟨(i 0).val / 4, hq⟩ (0 : Fin 3) = (i 0).val / 4 := o0
  intro a
  match a with
  | ⟨0, _⟩ =>
    show win0_2.index ⟨(i 0).val / 4, hq⟩ (0 : Fin 3) * 4 ≤ (i 0).val ∧ (i 0).val < win0_2.index ⟨(i 0).val / 4, hq⟩ (0 : Fin 3) * 4 + 4
    rw [o0']; omega
  | ⟨1, _⟩ =>
    show win0_2.index ⟨(i 0).val / 4, hq⟩ (1 : Fin 3) * 128 ≤ (i 1).val ∧ (i 1).val < win0_2.index ⟨(i 0).val / 4, hq⟩ (1 : Fin 3) * 128 + 128
    rw [o1]; omega
  | ⟨2, _⟩ =>
    show win0_2.index ⟨(i 0).val / 4, hq⟩ (2 : Fin 3) * 2048 ≤ (i 2).val ∧ (i 2).val < win0_2.index ⟨(i 0).val / 4, hq⟩ (2 : Fin 3) * 2048 + 2048
    rw [o2]; omega

/-- The result array after the run is the combiner of the two argument arrays. -/
theorem final (c : Dev nD) :
    (dats m 0 c).arrAt 2 cfg0.N
      = combine (m ((c : Thread nD τ).loc main_arg0)) (m ((c : Thread nD τ).loc main_arg1)) :=
  (dats m 0 c).arrAt_eq_of_cover 2 _ (fun t _ => flushed_eq m c t) cover

/-- The run: every weakly fair execution ends with the result array at the combiner of the arguments, which are
    unchanged. -/
theorem run : θ_run defs (onTc (τ := τ) (main (F := Ideal))) ⟨m, fun _ => 0, ρ⟩ fun r => ∀ c : Dev nD,
      r.2.mem ((c : Thread nD τ).loc main_v0)
        = combine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.ReferenceWhole.lean ====
/-
  The reference program's result array is the channel combiner of its two arguments.

  The reference walks a grid of 64 points, one per batch. Point b stages the whole weight matrix, the slab x[b]
  (a [1, 256, 2048] block) and writes back a [1, 128, 2048] block: the rows-by-columns product of the weights with the
  slab. So what point b writes back is block b of `combine w x` (`flushed_eq`), the 64 blocks cover the result array
  (`cover`: the point that covers row b of the batch axis is b itself), and the array after the run is `combine w x`
  (`final`, `run`).
-/
import proofs.«137641_g2000406248505700_pallasbulk_1107_12_alg».proof.Proof.Gen.ReferenceIdeal.Value
import proofs.«137641_g2000406248505700_pallasbulk_1107_12_alg».proof.Proof.Combine

set_option maxRecDepth 16384

noncomputable section

namespace Cert.ReferenceIdeal.Whole

open Cert.ReferenceIdeal Cert.ReferenceIdeal.Gen Idealize.ShloMosaic Idealize.ShloMosaic.TcCoe Idealize.SL.Sem
open Idealize.ShloMosaic.ValueIdx Cert.Combine
open Idealize.ShloMosaic.Pipeline (Dat)
open scoped BigOperators

variable (m : (ℓ : Loc nD τ sig) → Buf (Elt Ideal) ℓ) (ρ : Dev nD → PrngReg)

theorem zeros2 : (![0, 0] : Fin 2 → Nat) = fun _ => 0 := funext fun a => by fin_cases a <;> rfl
theorem zeros3 : (![0, 0, 0] : Fin 3 → Nat) = fun _ => 0 := funext fun a => by fin_cases a <;> rfl

/-- The body's one store, read at (u, n, s): the sum over the channels of weight (n, c) times the staged slab at
    (0, c, s). -/
theorem product_apply (x0 : Vec Ideal S128x256 .f32) (x1 : Vec Ideal S1x256x2048 .f32) (u : Fin 1) (n : Fin 128) (s : Fin 2048) :
    k0_pay1 x0 x1 (ix3 u n s) = ∑ c : Fin 256, x0 (ix2 n c) * x1 (ix3 (0 : Fin 1) c s) := by
  unfold k0_pay1
  refine (slab_apply (φ₁ := .f32) (φ₂ := .f32) dot_S128x256_S256x2048_S128x2048_1_0_0_1_n_n_wf (some .fp32) x0 _ _ u n s).trans ?_
  exact Finset.sum_congr rfl fun c _ => by rw [shapeCast_1ab_ab_apply]

/-- Where the windows' blocks sit at point t: the weights' block is the whole matrix, and the slab and the result
    block are both number t along the batch axis and whole along the other two. -/
theorem block_indices : ∀ t : Fin cfg0.N,
    win0_0.index t (0 : Fin 2) = 0 ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- What point t writes back is block t of the combiner of the arrays as the region finds them. -/
theorem flushed_eq (c : Dev nD) (t : Fin cfg0.N) :
    (dats m 0 c).flushed 2 t
      = ((cfg0.win 2).blk t).view.read (Elt Ideal) (combine (V m c main_arg0) (V m c main_arg1)) := by
  rw [Value.flushed2]
  unfold out0_2
  rw [View.canon_unit_zero zeros3]
  simp only [View.ld_unit_zero (S := S128x256) zeros2, View.ld_unit_zero (S := S1x256x2048) zeros3]
  obtain ⟨a0, a1, b0, b1, b2, o0, o1, o2⟩ := block_indices t
  funext j
  obtain ⟨u, n, s, rfl⟩ : ∃ (u : Fin 1) (n : Fin 128) (s : Fin 2048), j = ix3 u n s := ⟨j 0, j 1, j 2, eq_ix3 j⟩
  show k0_pay1 (iblk m c 0 t) (iblk m c 1 t) (ix3 u n s)
    = combine (V m c main_arg0) (V m c main_arg1) (((cfg0.win 2).blk t).view.emb (ix3 u n s))
  have hu : u.val = 0 := by omega
  have ht : t.val < 64 := t.isLt
  have hemb : ((cfg0.win 2).blk t).view.emb (ix3 u n s) = ix3 (⟨t.val, ht⟩ : Fin 64) n s := by
    funext a; apply Fin.ext
    match a with
    | ⟨0, _⟩ => show win0_2.index t (0 : Fin 3) * 1 + 1 * u.val = t.val; omega
    | ⟨1, _⟩ => show win0_2.index t (1 : Fin 3) * 128 + 1 * n.val = n.val; omega
    | ⟨2, _⟩ => show win0_2.index t (2 : Fin 3) * 2048 + 1 * s.val = s.val; omega
  rw [hemb]
  refine (product_apply _ _ u n s).trans ?_
  refine slab_of_array _ _ (fun p k => iblk m c 0 t (ix2 p k)) (fun k q => iblk m c 1 t (ix3 (0 : Fin 1) k q)) _ n s
    (fun k => ?_) (fun k => ?_)
  · show V m c main_arg0 (((cfg0.win 0).blk t).view.emb (ix2 n k)) = V m c main_arg0 (ix2 n k)
    refine congrArg _ ?_
    funext a; apply Fin.ext
    match a with
    | ⟨0, _⟩ => show win0_0.index t (0 : Fin 2) * 128 + 1 * n.val = n.val; omega
    | ⟨1, _⟩ => show win0_0.index t (1 : Fin 2) * 256 + 1 * k.val = k.val; omega
  · show V m c main_arg1 (((cfg0.win 1).blk t).view.emb (ix3 (0 : Fin 1) k s)) = V m c main_arg1 (ix3 (⟨t.val, ht⟩ : Fin 64) k s)
    refine congrArg _ ?_
    funext a; apply Fin.ext
    match a with
    | ⟨0, _⟩ => show win0_1.index t (0 : Fin 3) * 1 + 1 * 0 = t.val; omega
    | ⟨1, _⟩ => show win0_1.index t (1 : Fin 3) * 256 + 1 * k.val = k.val; omega
    | ⟨2, _⟩ => show win0_1.index t (2 : Fin 3) * 2048 + 1 * s.val = s.val; omega

/-- An index of the result array lies in point t's block iff each coordinate lies in the block's range. -/
theorem mem_block (t : Fin cfg0.N) (i : S64x128x2048.Idx) :
    i ∈ ((cfg0.win 2).blk t).view.set ↔ ∀ a : Fin 3, win0_2.index t a * S1x128x2048.size a ≤ (i a).val
      ∧ (i a).val < win0_2.index t a * S1x128x2048.size a + S1x128x2048.size a := by
  show i ∈ ((View.whole main_v0).slice (win0_2.rect t)).set ↔ _
  rw [View.set_slice_whole, Rect.mem_set_unit]
  exact Iff.rfl

/-- Every index of the result array is in some point's block: index (b, n, s) is in point b's. -/
theorem cover (i : S64x128x2048.Idx) :
    ∃ t : Fin cfg0.N, (cfg0.win 2).flush t = true ∧ i ∈ ((cfg0.win 2).blk t).view.set := by
  have h0 : (i 0).val < 64 := (i 0).isLt
  have h1 : (i 1).val < 128 := (i 1).isLt
  have h2 : (i 2).val < 2048 := (i 2).isLt
  refine ⟨⟨(i 0).val, h0⟩, flush0_2 _, ?_⟩
  rw [mem_block]
  obtain ⟨-, -, -, -, -, o0, o1, o2⟩ := block_indices ⟨(i 0).val, h0⟩
  have o0' : win0_2.index ⟨(i 0).val, h0⟩ (0 : Fin 3) = (i 0).val := o0
  intro a
  match a with
  | ⟨0, _⟩ =>
    show win0_2.index ⟨(i 0).val, h0⟩ (0 : Fin 3) * 1 ≤ (i 0).val ∧ (i 0).val < win0_2.index ⟨(i 0).val, h0⟩ (0 : Fin 3) * 1 + 1
    rw [o0']; omega
  | ⟨1, _⟩ =>
    show win0_2.index ⟨(i 0).val, h0⟩ (1 : Fin 3) * 128 ≤ (i 1).val ∧ (i 1).val < win0_2.index ⟨(i 0).val, h0⟩ (1 : Fin 3) * 128 + 128
    rw [o1]; omega
  | ⟨2, _⟩ =>
    show win0_2.index ⟨(i 0).val, h0⟩ (2 : Fin 3) * 2048 ≤ (i 2).val ∧ (i 2).val < win0_2.index ⟨(i 0).val, h0⟩ (2 : Fin 3) * 2048 + 2048
    rw [o2]; omega

/-- The result array after the run is the combiner of the two argument arrays. -/
theorem final (c : Dev nD) :
    (dats m 0 c).arrAt 2 cfg0.N
      = combine (m ((c : Thread nD τ).loc main_arg0)) (m ((c : Thread nD τ).loc main_arg1)) :=
  (dats m 0 c).arrAt_eq_of_cover 2 _ (fun t _ => flushed_eq m c t) cover

/-- The run: every weakly fair execution ends with the result array at the combiner of the arguments, which are
    unchanged. -/
theorem run : θ_run defs (onTc (τ := τ) (main (F := Ideal))) ⟨m, fun _ => 0, ρ⟩ fun r => ∀ c : Dev nD,
      r.2.mem ((c : Thread nD τ).loc main_v0)
        = combine (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.ReferenceIdeal.Whole

end
-- ==== Proof.lean ====
/-
  A channel combiner: out[b, n, t] = Σ_c weight[n, c] · x[b, c, t], with weight of shape [128, 256] and x of shape
  [64, 256, 2048].

  Both programs are one pipelined region and nothing else. The kernel walks 16 grid points and at each forms four
  rows-by-columns products, one per batch of its [4, 256, 2048] block, after casting both operands to a narrower float
  format; the reference walks 64 grid points and at each forms the one product of its batch, asked for at full
  precision. Over the extended reals a change of float format is the identity and the exact product does not look at
  the precision it is asked for, so each of the two writes, for batch b, the very same sum over the 256 channels: the
  two result arrays are one function of the arguments, `Cert.Combine.combine`. No rearrangement of a sum is needed, so
  the finiteness of the inputs is never used.

  * Proof/Combine.lean: the function, and one slab's product read at an index.
  * Proof/KernelWhole.lean, Proof/ReferenceWhole.lean: each program's result array after its run is that function of
    its arguments — what a grid point writes back is a block of it, and the blocks cover the array.
  * Here: the three frames are the generated ones; the idealization rewrote nothing, so there is nothing to preserve;
    and the two runs end at the same array once the arguments agree.
-/
import proofs.«137641_g2000406248505700_pallasbulk_1107_12_alg».proof.Defs
import proofs.«137641_g2000406248505700_pallasbulk_1107_12_alg».proof.Proof.Gen.Kernel
import proofs.«137641_g2000406248505700_pallasbulk_1107_12_alg».proof.Proof.Gen.Kernel.Skeleton
import proofs.«137641_g2000406248505700_pallasbulk_1107_12_alg».proof.Proof.Gen.Kernel.Launch
import proofs.«137641_g2000406248505700_pallasbulk_1107_12_alg».proof.Proof.Gen.Kernel.Points
import proofs.«137641_g2000406248505700_pallasbulk_1107_12_alg».proof.Proof.Gen.Kernel.Frame
import proofs.«137641_g2000406248505700_pallasbulk_1107_12_alg».proof.Proof.Gen.KernelIdeal
import proofs.«137641_g2000406248505700_pallasbulk_1107_12_alg».proof.Proof.Gen.KernelIdeal.Skeleton
import proofs.«137641_g2000406248505700_pallasbulk_1107_12_alg».proof.Proof.Gen.KernelIdeal.Launch
import proofs.«137641_g2000406248505700_pallasbulk_1107_12_alg».proof.Proof.Gen.KernelIdeal.Points
import proofs.«137641_g2000406248505700_pallasbulk_1107_12_alg».proof.Proof.Gen.KernelIdeal.Frame
import proofs.«137641_g2000406248505700_pallasbulk_1107_12_alg».proof.Proof.Gen.ReferenceIdeal
import proofs.«137641_g2000406248505700_pallasbulk_1107_12_alg».proof.Proof.Gen.ReferenceIdeal.Skeleton
import proofs.«137641_g2000406248505700_pallasbulk_1107_12_alg».proof.Proof.Gen.ReferenceIdeal.Launch
import proofs.«137641_g2000406248505700_pallasbulk_1107_12_alg».proof.Proof.Gen.ReferenceIdeal.Points
import proofs.«137641_g2000406248505700_pallasbulk_1107_12_alg».proof.Proof.Gen.ReferenceIdeal.Frame
import proofs.«137641_g2000406248505700_pallasbulk_1107_12_alg».proof.Proof.Gen.Pre_finite_inputs
import proofs.«137641_g2000406248505700_pallasbulk_1107_12_alg».proof.Proof.Gen.KernelIdeal.Value
import proofs.«137641_g2000406248505700_pallasbulk_1107_12_alg».proof.Proof.Gen.ReferenceIdeal.Value
import Idealize.ShloMosaic.Adequacy
import Idealize.ShloMosaic.Init
import proofs.«137641_g2000406248505700_pallasbulk_1107_12_alg».proof.Proof.KernelWhole
import proofs.«137641_g2000406248505700_pallasbulk_1107_12_alg».proof.Proof.ReferenceWhole

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ => Cert.ReferenceIdeal.Gen.frame m ρ

/-- The idealization rewrote no operation. -/
theorem preserves : Cert.preserves_Kernel_KernelIdeal := trivial

/-- Run from memories that agree on the two arguments, both programs end with the result array at the combiner of the
    arguments: the kernel's of its own, the reference's of its own, which are the kernel's. -/
theorem algebraic : Cert.algebraic_KernelIdeal_ReferenceIdeal := by
  intro m ρ m' ρ' _ hagree
  refine ⟨fun c => Cert.Combine.combine (m ((c : Thread Cert.KernelIdeal.nD Cert.KernelIdeal.τ).loc Cert.KernelIdeal.main_arg0))
      (m ((c : Thread Cert.KernelIdeal.nD Cert.KernelIdeal.τ).loc Cert.KernelIdeal.main_arg1)),
    Cert.KernelIdeal.Whole.run m ρ, ?_⟩
  refine (θ_run Cert.ReferenceIdeal.defs _ _).mono (fun r h c => ⟨(h c).1.trans ?_, (h c).2⟩)
    (Cert.ReferenceIdeal.Whole.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
